-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x256 : Shape := ⟨2, ![512, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S256x32 .f32) (main_arg5 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x512 .f32) (main_arg1 : FVec F S1600000 .f32) (main_arg2 : FVec F S512x256 .f32) (main_arg3 : FVec F S256 .f32) (main_arg4 : FVec F S256x32 .f32) (main_arg5 : FVec F S32 .f32) (main_arg6 : IVec S1600000 32) (main_arg7 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x512 : Shape := ⟨2, ![100000, 512]⟩
abbrev S1600000 : Shape := ⟨1, ![1600000]⟩
abbrev S512x256 : Shape := ⟨2, ![512, 256]⟩
abbrev S256 : Shape := ⟨1, ![256]⟩
abbrev S256x32 : Shape := ⟨2, ![256, 32]⟩
abbrev S32 : Shape := ⟨1, ![32]⟩
abbrev S100000x32 : Shape := ⟨2, ![100000, 32]⟩
abbrev S2000x512 : Shape := ⟨2, ![2000, 512]⟩
abbrev S2000x32 : Shape := ⟨2, ![2000, 32]⟩
abbrev S2000x256 : Shape := ⟨2, ![2000, 256]⟩
abbrev S1x256 : Shape := ⟨2, ![1, 256]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩

abbrev nBuf : Space → Nat
  | .hbm => 26
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S1600000, .i32⟩
  | .hbm, ⟨7, _⟩ => ⟨S1600000, .i32⟩
  | .hbm, ⟨8, _⟩ => ⟨S100000x32, .bf16⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x32, .bf16⟩
  | .hbm, ⟨18, _⟩ => ⟨S1600000x32, .f32⟩
  | .hbm, ⟨19, _⟩ => ⟨S1600000x1, .f32⟩
  | .hbm, ⟨20, _⟩ => ⟨S1600000x32, .f32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S256, .f32⟩
  | .local _ .vmem, ⟨4, _⟩ => ⟨S256x32, .f32⟩
  | .local _ .vmem, ⟨5, _⟩ => ⟨S32, .f32⟩
  | .local _ .vmem, ⟨6, _⟩ => ⟨S2000x32, .bf16⟩
  | .local _ .vmem, ⟨7, _⟩ => ⟨S2000x32, .bf16⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  packedbf16_S2000x32_S2000x32_0_0 : (Rect.unit (s := S2000x32) ![0, 0] S2000x32.size inb_S2000x32_S2000x32_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S2000x512_S512x256_S2000x256_1_0_0_1_n_n_wf : DotDims.WF S2000x512 S512x256 S2000x256 [1] [0] [0] [1] [] []
  dot_S2000x256_S256x32_S2000x32_1_0_0_1_n_n_wf : DotDims.WF S2000x256 S256x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .bf16 = 32 ∨ (Rect.block (s := S100000x32) S2000x32.size (cc0_transform_5 i) (hinb0_5 i)).WholeWords (EltTy.packing .bf16)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x256 : Shape := ⟨2, ![512, 256]⟩
abbrev S256 : Shape := ⟨1, ![256]⟩
abbrev S256x32 : Shape := ⟨2, ![256, 32]⟩
abbrev S32 : Shape := ⟨1, ![32]⟩
abbrev S100000x256 : Shape := ⟨2, ![100000, 256]⟩
abbrev S1x256 : Shape := ⟨2, ![1, 256]⟩
abbrev S_ : Shape := ⟨0, ![]⟩
abbrev S100000x32 : Shape := ⟨2, ![100000, 32]⟩
abbrev S1x32 : Shape := ⟨2, ![1, 32]⟩
abbrev S1600000x1 : Shape := ⟨2, ![1600000, 1]⟩
abbrev S1600000x32 : Shape := ⟨2, ![1600000, 32]⟩

abbrev nBuf : Space → Nat
  | .hbm => 35
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S1600000, .i32⟩
  | .hbm, ⟨7, _⟩ => ⟨S1600000, .i32⟩
  | .hbm, ⟨8, _⟩ => ⟨S100000x256, .f32⟩
  | .hbm, ⟨9, _⟩ => ⟨S1x256, .f32⟩
  | .hbm, ⟨10, _⟩ => ⟨S100000x256, .f32⟩
  | .hbm, ⟨11, _⟩ => ⟨S100000x256, .f32⟩
  | .hbm, ⟨12, _⟩ => ⟨S_, .f32⟩
  | .hbm, ⟨13, _⟩ => ⟨S100000x256, .f32⟩
  | .hbm, ⟨14, _⟩ => ⟨S100000x256, .f32⟩
  | .hbm, ⟨15, _⟩ => ⟨S100000x32, .f32⟩
  | .hbm, ⟨16, _⟩ => ⟨S1x32, .f32⟩
  | .hbm, ⟨17, _⟩ => ⟨S100000x32, .f32⟩
  | .hbm, ⟨18, _⟩ => ⟨S100000x32, .f32⟩
  | .hbm, ⟨19, _⟩ => ⟨S1600000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x32, .f32⟩
  | .hbm, ⟨29, _⟩ => ⟨S1600000x32, .f32⟩
  | .hbm, ⟨30, _⟩ => ⟨S1600000x32, .f32⟩
  | .hbm, ⟨31, _⟩ => ⟨S_, .f32⟩
  | .hbm, ⟨32, _⟩ => ⟨S100000x32, .f32⟩
  | .hbm, ⟨33, _⟩ => ⟨S1600000x1, .i32⟩
  | .hbm, ⟨34, _⟩ => ⟨S100000x32, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x512_S512x256_S100000x256_1_0_0_1_n_n_wf : DotDims.WF S100000x512 S512x256 S100000x256 [1] [0] [0] [1] [] []
  dot_S100000x256_S256x32_S100000x32_1_0_0_1_n_n_wf : DotDims.WF S100000x256 S256x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.Perceptron.lean ====
/-
  A two-layer perceptron on the extended reals, one output entry at a time.

  For a feature matrix f with M rows, weights w1 (512 by 256) and w2 (256 by 32) and bias vectors b1, b2, the hidden
  activation of row r at unit j is the affine image of the row floored at zero,

      hidden r j = max (sum over k of f(r,k) * w1(k,j) + b1(j)) 0,

  and the output entry at (r, q) is  sum over j of hidden r j * w2(j,q) + b2(q).  An output row depends on the same
  row of f only (unit_congr): that is what lets a program compute the array a block of rows at a time.

  Two ways of computing an entry are shown to give it.  In the first (of_matmul) every matrix product is a matrix-unit
  product accumulated into a zero array, its operands first narrowed to a shorter float format; on the extended reals
  narrowing changes nothing and the zero start adds nothing.  In the second (of_dot) the products are plain dot
  products.  In both the bias is added as an array whose every row is the bias vector, and the floor is taken against
  an array that is the zero word everywhere.  No law of arithmetic beyond these readings is used: the two sums are the
  same sums in the same order, so nothing is asked of the entries (they may be infinite).
-/
import Idealize.ShloMosaic.PureOps.Ideal.Laws
import Idealize.ShloMosaic.Lib.ValueIdx
import proofs.«108479_j10557029614175_2_alg».proof.Proof.LibDotPlain

noncomputable section

open scoped BigOperators

namespace Cert.Perceptron

open Idealize.ShloMosaic Idealize.ShloMosaic.ValueIdx

variable {M : Nat}

/-- The floor of the hidden layer: the single-precision word of 0.0 read as an extended real. -/
abbrev floor0 : EReal := FloatOps.ofBits (F := Ideal) .f32 0x00000000#32

/-- Hidden unit `j` of row `r`: the first layer's affine map, floored. -/
def hidden (f : FVec Ideal ⟨2, ![M, 512]⟩ .f32) (w1 : FVec Ideal ⟨2, ![512, 256]⟩ .f32) (b1 : FVec Ideal ⟨1, ![256]⟩ .f32)
    (r : Fin M) (j : Fin 256) : EReal :=
  max ((∑ k : Fin 512, f (ix2 r k) * w1 (ix2 k j)) + b1 (ix1 j)) floor0

/-- Output entry `(r, q)`: the second layer's affine map of row `r`'s hidden units. -/
def unit (f : FVec Ideal ⟨2, ![M, 512]⟩ .f32) (w1 : FVec Ideal ⟨2, ![512, 256]⟩ .f32) (b1 : FVec Ideal ⟨1, ![256]⟩ .f32)
    (w2 : FVec Ideal ⟨2, ![256, 32]⟩ .f32) (b2 : FVec Ideal ⟨1, ![32]⟩ .f32) (r : Fin M) (q : Fin 32) : EReal :=
  (∑ j : Fin 256, hidden f w1 b1 r j * w2 (ix2 j q)) + b2 (ix1 q)

/-- The whole output array. -/
def dense (f : FVec Ideal ⟨2, ![M, 512]⟩ .f32) (w1 : FVec Ideal ⟨2, ![512, 256]⟩ .f32) (b1 : FVec Ideal ⟨1, ![256]⟩ .f32)
    (w2 : FVec Ideal ⟨2, ![256, 32]⟩ .f32) (b2 : FVec Ideal ⟨1, ![32]⟩ .f32) : FVec Ideal ⟨2, ![M, 32]⟩ .f32 :=
  fun i => unit f w1 b1 w2 b2 (i 0) (i 1)

/-- An output row is a function of the same row of the features: two feature matrices, of any heights, that agree on
    a row of each give the same entries along those rows. -/
theorem unit_congr {M' : Nat} (f : FVec Ideal ⟨2, ![M, 512]⟩ .f32) (f' : FVec Ideal ⟨2, ![M', 512]⟩ .f32)
    (w1 : FVec Ideal ⟨2, ![512, 256]⟩ .f32) (b1 : FVec Ideal ⟨1, ![256]⟩ .f32)
    (w2 : FVec Ideal ⟨2, ![256, 32]⟩ .f32) (b2 : FVec Ideal ⟨1, ![32]⟩ .f32) (r : Fin M) (r' : Fin M') (q : Fin 32)
    (hf : ∀ k : Fin 512, f (ix2 r k) = f' (ix2 r' k)) : unit f w1 b1 w2 b2 r q = unit f' w1 b1 w2 b2 r' q := by
  unfold unit hidden
  simp only [hf]

/-- Computed with matrix-unit products into zero arrays, the operands narrowed first. -/
theorem of_matmul (d1 : DotDims ⟨2, ![M, 512]⟩ ⟨2, ![512, 256]⟩ ⟨2, ![M, 256]⟩) (h1 : DotPlain.IsPlain d1)
    (d2 : DotDims ⟨2, ![M, 256]⟩ ⟨2, ![256, 32]⟩ ⟨2, ![M, 32]⟩) (h2 : DotPlain.IsPlain d2) (p1 p2 : Option ContractPrecision)
    (hn : FTy.bf16.bits < FTy.f32.bits)
    (f : FVec Ideal ⟨2, ![M, 512]⟩ .f32) (w1 : FVec Ideal ⟨2, ![512, 256]⟩ .f32) (b1 : FVec Ideal ⟨1, ![256]⟩ .f32)
    (w2 : FVec Ideal ⟨2, ![256, 32]⟩ .f32) (b2 : FVec Ideal ⟨1, ![32]⟩ .f32)
    (rows1 zeros : FVec Ideal ⟨2, ![M, 256]⟩ .f32) (rows2 : FVec Ideal ⟨2, ![M, 32]⟩ .f32)
    (hb1 : ∀ (r : Fin M) (j : Fin 256), rows1 (ix2 r j) = b1 (ix1 j)) (hz : ∀ (r : Fin M) (j : Fin 256), zeros (ix2 r j) = floor0)
    (hb2 : ∀ (r : Fin M) (q : Fin 32), rows2 (ix2 r q) = b2 (ix1 q)) (r : Fin M) (q : Fin 32) :
    (truncf .bf16 (addf (matmul d2 p2
        (truncf .bf16 (maximumf (addf (matmul d1 p1 (truncf .bf16 f hn) (truncf .bf16 w1 hn)
          (constant (F := Ideal) ⟨2, ![M, 256]⟩ .f32 0x00000000#32)) rows1) zeros) hn)
        (truncf .bf16 w2 hn) (constant (F := Ideal) ⟨2, ![M, 32]⟩ .f32 0x00000000#32)) rows2) hn : FVec Ideal ⟨2, ![M, 32]⟩ .bf16) (ix2 r q)
      = unit f w1 b1 w2 b2 r q := by
  show (matmul d2 p2 _ _ (constant (F := Ideal) ⟨2, ![M, 32]⟩ .f32 0x00000000#32) (ix2 r q) : EReal) + rows2 (ix2 r q) = _
  rw [DotPlain.matmul_zero_apply h2, hb2]
  unfold unit
  refine congrArg (· + b2 (ix1 q)) (Finset.sum_congr rfl fun j _ => congrArg (· * w2 (ix2 j q)) ?_)
  show max ((matmul d1 p1 _ _ (constant (F := Ideal) ⟨2, ![M, 256]⟩ .f32 0x00000000#32) (ix2 r j) : EReal) + rows1 (ix2 r j)) (zeros (ix2 r j)) = _
  rw [DotPlain.matmul_zero_apply h1, hb1, hz]
  rfl

/-- Computed with plain dot products. -/
theorem of_dot (d1 : DotDims ⟨2, ![M, 512]⟩ ⟨2, ![512, 256]⟩ ⟨2, ![M, 256]⟩) (h1 : DotPlain.IsPlain d1)
    (d2 : DotDims ⟨2, ![M, 256]⟩ ⟨2, ![256, 32]⟩ ⟨2, ![M, 32]⟩) (h2 : DotPlain.IsPlain d2) (p1 p2 : Option ContractPrecision)
    (f : FVec Ideal ⟨2, ![M, 512]⟩ .f32) (w1 : FVec Ideal ⟨2, ![512, 256]⟩ .f32) (b1 : FVec Ideal ⟨1, ![256]⟩ .f32)
    (w2 : FVec Ideal ⟨2, ![256, 32]⟩ .f32) (b2 : FVec Ideal ⟨1, ![32]⟩ .f32)
    (rows1 zeros : FVec Ideal ⟨2, ![M, 256]⟩ .f32) (rows2 : FVec Ideal ⟨2, ![M, 32]⟩ .f32)
    (hb1 : ∀ (r : Fin M) (j : Fin 256), rows1 (ix2 r j) = b1 (ix1 j)) (hz : ∀ (r : Fin M) (j : Fin 256), zeros (ix2 r j) = floor0)
    (hb2 : ∀ (r : Fin M) (q : Fin 32), rows2 (ix2 r q) = b2 (ix1 q)) (r : Fin M) (q : Fin 32) :
    (addf (Host.dotGeneral d2 p2 (maximumf (addf (Host.dotGeneral d1 p1 f w1) rows1) zeros) w2) rows2 : FVec Ideal ⟨2, ![M, 32]⟩ .f32) (ix2 r q)
      = unit f w1 b1 w2 b2 r q := by
  show (Host.dotGeneral d2 p2 _ w2 (ix2 r q) : EReal) + rows2 (ix2 r q) = _
  rw [DotPlain.dotGeneral_apply h2, hb2]
  unfold unit
  refine congrArg (· + b2 (ix1 q)) (Finset.sum_congr rfl fun j _ => congrArg (· * w2 (ix2 j q)) ?_)
  show max ((Host.dotGeneral d1 p1 f w1 (ix2 r j) : EReal) + rows1 (ix2 r j)) (zeros (ix2 r j)) = _
  rw [DotPlain.dotGeneral_apply h1, hb1, hz]
  rfl

end Cert.Perceptron

end
-- ==== Proof.Payload.lean ====
/-
  What one grid step of the kernel stores, entry by entry.

  At a grid step the body has loaded a block of 2000 feature rows and the whole of both weight matrices and both bias
  vectors.  It narrows the features and the first weights, multiplies them on the matrix unit into a zero array, adds
  the first bias — the vector viewed as a one-row array and that row repeated 2000 times —, floors at the zero word,
  narrows, multiplies by the narrowed second weights into a zero array, adds the second bias the same way and narrows
  the sum for storing.  Read on the extended reals that is, at row p and column q of the block, the perceptron's entry
  (p, q) of the loaded feature rows: both products have plain matrix-product dimension numbers, and a repeated one-row
  view of a vector reads the vector at the column.
-/
import proofs.«108479_j10557029614175_2_alg».proof.Proof.Gen.KernelIdeal.Skeleton
import proofs.«108479_j10557029614175_2_alg».proof.Proof.Perceptron
import Idealize.ShloMosaic.Lib.ValueLayout

noncomputable section

namespace Cert.KernelIdeal.Body

open Cert.KernelIdeal Cert.KernelIdeal.Gen Idealize.ShloMosaic Idealize.ShloMosaic.ValueIdx

/-- The first product contracts the features' columns with the weights' rows and has no batch axis. -/
theorem plain1 : DotPlain.IsPlain dot_S2000x512_S512x256_S2000x256_1_0_0_1_n_n := ⟨rfl, rfl, rfl, rfl, rfl, rfl⟩
/-- So does the second, hidden units against the second weights' rows. -/
theorem plain2 : DotPlain.IsPlain dot_S2000x256_S256x32_S2000x32_1_0_0_1_n_n := ⟨rfl, rfl, rfl, rfl, rfl, rfl⟩

/-- A vector viewed as one row and that row repeated down `a` rows reads, at `(r, j)`, the vector at `j`. -/
theorem row_repeat {a b : ℕ} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (r : Fin a) (j : Fin b) :
    broadcastTo ⟨2, ![a, b]⟩ (shapeCast ⟨2, ![1, b]⟩ v h1) h2 (ix2 r j) = v (ix1 j) :=
  (broadcastTo_1b_ab_apply _ h2 r j).trans (shapeCast_a_1a_apply v h1 0 j)

/-- THE STORED BLOCK at `(p, q)` is the perceptron's entry `(p, q)` of the loaded blocks. -/
theorem pay_apply (v0 : FVec Ideal S2000x512 .f32) (v2 : FVec Ideal S512x256 .f32) (v5 : FVec Ideal S256 .f32)
    (v12 : FVec Ideal S256x32 .f32) (v15 : FVec Ideal S32 .f32) (p : Fin 2000) (q : Fin 32) :
    k0_pay1 (F := Ideal) v0 v2 v5 v12 v15 (ix2 p q) = Perceptron.unit v0 v2 v5 v12 v15 p q := by
  unfold k0_pay1
  exact Perceptron.of_matmul _ plain1 _ plain2 none none _ v0 v2 v5 v12 v15 _ _ _
    (fun r j => row_repeat v5 _ _ r j) (fun _ _ => rfl) (fun r j => row_repeat v15 _ _ r j) p q

end Cert.KernelIdeal.Body

end
-- ==== Proof.Blocks.lean ====
/-
  From blocks of rows to the whole array.

  The grid has 50 steps.  Step t reads rows 2000·t … 2000·t + 1999 of the features, the whole of the weights and
  biases, and writes back rows 2000·t … 2000·t + 1999 of the 100000-row result.  By the payload's reading the block
  written back is, entry by entry, the perceptron of the feature rows read; an output row of the perceptron depends on
  the same feature row only, so that block is the corresponding block of rows of the perceptron of the WHOLE feature
  matrix.  Every row r of the result lies in the block of step r / 2000, so after the last step the result array is the
  perceptron of the argument arrays.
-/
import proofs.«108479_j10557029614175_2_alg».proof.Proof.Gen.KernelIdeal.Frame
import proofs.«108479_j10557029614175_2_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a; rfl

/-- The perceptron of the argument arrays as the kernel's region finds them. -/
abbrev whole (c : Dev nD) : S100000x32.Idx → EReal :=
  Perceptron.dense (V m c main_arg0) (V m c main_arg2) (V m c main_arg3) (V m c main_arg4) (V m c main_arg5)

/-- The index maps, decided over the 50 steps: the feature block moves down with the result block, both stay in
    column-block 0, and the weights and biases are always taken whole. -/
theorem idx_facts : ∀ t : Fin cfg0.N, win0_0.index t (0 : Fin 2) = win0_5.index t (0 : Fin 2)
    ∧ win0_0.index t (1 : Fin 2) = 0
    ∧ win0_5.index t (1 : Fin 2) = 0
    ∧ win0_5.index t (0 : Fin 2) ≤ 49
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- Every block of rows is some step's. -/
theorem idx_onto : ∀ b : Fin 50, ∃ t : Fin cfg0.N, win0_5.index t = ![b.val, 0] :=
  (by decide +kernel : ∀ b : Fin 50, ∃ t : Fin grid0.N, win0_5.index t = ![b.val, 0])

/-- WHAT STEP `t` WRITES BACK is its block of rows of the perceptron of the whole arrays. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero zero2]
  simp only [View.ld_unit_zero (S := S2000x512) zero2, View.ld_unit_zero (S := S512x256) zero2,
    View.ld_unit_zero (S := S256) zero1, View.ld_unit_zero (S := S256x32) zero2, View.ld_unit_zero (S := S32) zero1]
  obtain ⟨e0, e1, e2, e3, e4, e5, e6, e7, e8, e9⟩ := idx_facts t
  -- the weights and biases are read whole
  have w1 : iblk m c 1 t = V m c main_arg2 := funext fun y => by
    show V m c main_arg2 (((cfg0.win 1).blk t).view.emb y) = V m c main_arg2 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 256 + 1 * (y 1).val = (y 1).val; omega
  have b1 : iblk m c 2 t = V m c main_arg3 := funext fun y => by
    show V m c main_arg3 (((cfg0.win 2).blk t).view.emb y) = V m c main_arg3 y
    refine congrArg _ (funext fun a => Fin.ext ?_)
    match a with
    | ⟨0, _⟩ => show win0_2.index t (0 : Fin 1) * 256 + 1 * (y 0).val = (y 0).val; omega
  have w2 : iblk m c 3 t = V m c main_arg4 := funext fun y => by
    show V m c main_arg4 (((cfg0.win 3).blk t).view.emb y) = V m c main_arg4 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 32 + 1 * (y 1).val = (y 1).val; omega
  have b2 : iblk m c 4 t = V m c main_arg5 := funext fun y => by
    show V m c main_arg5 (((cfg0.win 4).blk t).view.emb y) = V m c main_arg5 y
    refine congrArg _ (funext fun a => Fin.ext ?_)
    match a with
    | ⟨0, _⟩ => show win0_4.index t (0 : Fin 1) * 32 + 1 * (y 0).val = (y 0).val; omega
  funext y
  obtain ⟨p, q, rfl⟩ : ∃ (p : Fin 2000) (q : Fin 32), y = ix2 p q := ⟨y 0, y 1, eq_ix2 y⟩
  show k0_pay1 (F := Ideal) (iblk m c 0 t) (iblk m c 1 t) (iblk m c 2 t) (iblk m c 3 t) (iblk m c 4 t) (ix2 p q)
    = whole m c (((cfg0.win 5).blk t).view.emb (ix2 p q))
  refine (Body.pay_apply (iblk m c 0 t) (iblk m c 1 t) (iblk m c 2 t) (iblk m c 3 t) (iblk m c 4 t) p q).trans ?_
  -- the column is kept, and the feature row read is the result row written
  have hq : (((cfg0.win 5).blk t).view.emb (ix2 p q)) 1 = q :=
    Fin.ext (by show win0_5.index t (1 : Fin 2) * 32 + 1 * q.val = q.val; omega)
  have hf : ∀ k : Fin 512, iblk m c 0 t (ix2 p k) = V m c main_arg0 (ix2 ((((cfg0.win 5).blk t).view.emb (ix2 p q)) 0) k) := fun k => by
    show V m c main_arg0 (((cfg0.win 0).blk t).view.emb (ix2 p k)) = _
    refine congrArg _ (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 512 + 1 * k.val = k.val; omega
  show _ = Perceptron.unit (V m c main_arg0) (V m c main_arg2) (V m c main_arg3) (V m c main_arg4) (V m c main_arg5)
    ((((cfg0.win 5).blk t).view.emb (ix2 p q)) 0) ((((cfg0.win 5).blk t).view.emb (ix2 p q)) 1)
  rw [hq, w1, b1, w2, b2]
  exact Perceptron.unit_congr _ _ _ _ _ _ p _ q hf

/-- A row and column are in step `t`'s block iff each is in the block's range on its axis. -/
theorem mem_blk (t : Fin cfg0.N) (i : S100000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v0).slice (win0_5.rect t)).set ↔ _
  rw [View.set_slice_whole, Rect.mem_set_unit]
  exact Iff.rfl

/-- Row `r` is written by step `r / 2000`. -/
theorem cover (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 32 ≤ (i 1).val ∧ (i 1).val < win0_5.index t (1 : Fin 2) * 32 + 32; omega

/-- THE RESULT ARRAY OF THE REGION after the last step is the perceptron of the argument arrays. -/
theorem final (c : Dev nD) : (dats m 0 c).arrAt 5 cfg0.N = whole m c :=
  (dats m 0 c).arrAt_eq_of_cover 5 (whole m c) (fun t _ => flushed_eq m c t) cover

end Cert.KernelIdeal.Blocks

end
-- ==== Proof.Propagate.lean ====
/-
  The sparse propagation step, as one function of the array it propagates.

  Given a 100000 by 32 array X, one weight a(e), one destination row(e) and one source col(e) for each of 1600000
  edges: a negative source is first shifted up by 100000; row col(e) of X is fetched (the fetch clamps the source into
  range), scaled by a(e), and added into row row(e) of an array that starts at the zero word (an edge whose destination
  is out of range adds nothing).  Nothing here looks inside the fetch or the accumulation: two programs that apply
  this same step to equal arrays X get equal results, which is all that is used.
-/
import proofs.«108479_j10557029614175_2_alg».proof.Proof.Gen.ReferenceIdeal
import Idealize.ShloMosaic.PureOps.Ideal

noncomputable section

namespace Cert.Propagate

open Cert.ReferenceIdeal Cert.ReferenceIdeal.Gen Idealize.ShloMosaic

/-- Weighted rows of `X` fetched by source and summed by destination. -/
def spread (X : (⟨S100000x32, .f32⟩ : BufTy).Contents (Elt Ideal)) (a : (⟨S1600000, .f32⟩ : BufTy).Contents (Elt Ideal))
    (row col : (⟨S1600000, .i32⟩ : BufTy).Contents (Elt Ideal)) : (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 row)
    (mulf (broadcastInDim S1600000x32 ![0, 1] bcast_S1600000x1_S1600000x32_0_1 (broadcastInDim S1600000x1 ![0] bcast_S1600000_S1600000x1_0 a))
      (Host.gather gather_S100000x32_S1600000x1_S1600000x32_1_0_n_n_0_1_132 X
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

end Cert.Propagate

end
-- ==== Proof.KernelRun.lean ====
/-
  What the kernel's program computes.

  The program is one region — the 50 grid steps that leave the perceptron of the argument arrays in the region's
  result array — followed by the sparse propagation step on that array, on the host.  The host lines fetch rows of the
  region's narrow-format result and widen them before scaling; on the extended reals widening changes nothing, so the
  lines are the propagation step itself, applied to whatever the region's result array, the edge weights, the
  destinations and the sources hold when the lines start.  No host line and no grid step writes the weights, the
  destinations or the sources, so they still hold the arguments; the region's result array holds the perceptron.
  Hence every execution ends with the program's result at the propagation of the perceptron of the arguments, and
  the argument arrays as they were.
-/
import proofs.«108479_j10557029614175_2_alg».proof.Proof.Gen.KernelIdeal.Frame
import proofs.«108479_j10557029614175_2_alg».proof.Proof.Blocks
import proofs.«108479_j10557029614175_2_alg».proof.Proof.Propagate
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe
open Idealize.SL.Sem Idealize.ShloMosaic.StableHlo
open Idealize.ShloMosaic.Pipeline (Dat)

set_option maxHeartbeats 2000000 in
/-- The host lines after the region, from ANY buffer contents `W`, leave in the program's result the propagation of
    what `W` holds in the region's result array, by the edge data `W` holds. -/
theorem tail_after (W : Valuation τ sig (Elt Ideal)) :
    StableHlo.after (hostOps1 (F := Ideal)) W (Proc.devRef .tc main_v14)
      = Propagate.spread (W (Proc.devRef .tc main_v0)) (W (Proc.devRef .tc main_arg1)) (W (Proc.devRef .tc main_arg6)) (W (Proc.devRef .tc main_arg7)) := by
  after_results
  unfold Propagate.spread extf
  simp only [Ideal.extf_def]
  rfl

variable (m : (ℓ : Loc nD τ sig) → Buf (Elt Ideal) ℓ) (ρ : Dev nD → PrngReg)

/-- THE PROGRAM'S RESULT as the frame run's post names it: the propagation of the perceptron of the arguments. -/
theorem tail_eq (c : Dev nD) :
    Pipeline.afterTail₀ cfgs (dats m) 0 (V0 m) [hostOps1] c main_v14
      = Propagate.spread (Perceptron.dense (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg1)) (m ((c.tc : Thread nD τ).loc main_arg6)) (m ((c.tc : Thread nD τ).loc main_arg7)) := by
  unfold Pipeline.afterTail₀
  refine (tail_after _).trans ?_
  rw [Pipeline.withArrays_arr spec0 launch0.win.arr_inj c (V0 m c) _ 5, Blocks.final m c,
    Pipeline.withArrays_of_ne _ c (V0 m c) _ main_arg1 (by exact (by decide : ∀ w, Pipeline.arrRef spec0 w ≠ main_arg1)),
    Pipeline.withArrays_of_ne _ c (V0 m c) _ main_arg6 (by exact (by decide : ∀ w, Pipeline.arrRef spec0 w ≠ main_arg6)),
    Pipeline.withArrays_of_ne _ c (V0 m c) _ main_arg7 (by exact (by decide : ∀ w, Pipeline.arrRef spec0 w ≠ main_arg7))]
  rfl

/-- THE RUN: every weakly fair execution of the program ends with its result at the propagation of the perceptron of
    the arguments, and the argument arrays unchanged. -/
theorem run : θ_run defs (onTc (τ := τ) (main (F := Ideal))) ⟨m, fun _ => 0, ρ⟩ (fun r => ∀ c : Dev nD,
      r.2.mem ((c.tc : Thread nD τ).loc main_v14)
        = Propagate.spread (Perceptron.dense (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
            (m ((c.tc : Thread nD τ).loc main_arg1)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v14 (Pipeline.mem_restRefs_of main_v14 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.RefValue.lean ====
/-
  What the reference computes.

  The reference forms the perceptron of its arguments with two plain dot products — each bias added as the bias vector
  placed on the one row of a one-row array and that row repeated over all 100000 rows, the floor taken against an
  array that is the zero word everywhere — and then applies the sparse propagation step to it.  Entry by entry the
  first part is the perceptron's entry (the dot products have plain matrix-product dimension numbers; the repeated
  row reads the vector at the column), so the reference's result is the propagation of the perceptron of its
  arguments.
-/
import proofs.«108479_j10557029614175_2_alg».proof.Proof.Gen.ReferenceIdeal.Read
import proofs.«108479_j10557029614175_2_alg».proof.Proof.Perceptron
import proofs.«108479_j10557029614175_2_alg».proof.Proof.Propagate

noncomputable section

namespace Cert.ReferenceIdeal.RefValue

open Cert.ReferenceIdeal Cert.ReferenceIdeal.Gen Idealize.ShloMosaic Idealize.ShloMosaic.ValueIdx

/-- The first product contracts the features' columns with the weights' rows and has no batch axis. -/
theorem plain1 : DotPlain.IsPlain dot_S100000x512_S512x256_S100000x256_1_0_0_1_n_n := ⟨rfl, rfl, rfl, rfl, rfl, rfl⟩
/-- So does the second. -/
theorem plain2 : DotPlain.IsPlain dot_S100000x256_S256x32_S100000x32_1_0_0_1_n_n := ⟨rfl, rfl, rfl, rfl, rfl, rfl⟩

/-- The first bias as the reference spreads it over the rows reads, at `(r, j)`, the bias at `j`. -/
theorem bias1 (x3 : (⟨S256, .f32⟩ : BufTy).Contents (Elt Ideal)) (r : Fin 100000) (j : Fin 256) :
    Read.val_main_v2 (F := Ideal) x3 (ix2 r j) = x3 (ix1 j) :=
  (Read.val_main_v2_apply x3 (ix2 r j)).trans ((Read.val_main_v1_apply x3 _).trans
    (congrArg x3 (funext fun a => match a with | ⟨0, _⟩ => rfl)))

/-- The second bias likewise. -/
theorem bias2 (x5 : (⟨S32, .f32⟩ : BufTy).Contents (Elt Ideal)) (r : Fin 100000) (q : Fin 32) :
    Read.val_main_v7 (F := Ideal) x5 (ix2 r q) = x5 (ix1 q) :=
  (Read.val_main_v7_apply x5 (ix2 r q)).trans ((Read.val_main_v6_apply x5 _).trans
    (congrArg x5 (funext fun a => match a with | ⟨0, _⟩ => rfl)))

/-- The array the floor is taken against is the zero word everywhere. -/
theorem floor_row (r : Fin 100000) (j : Fin 256) :
    Read.val_main_call0_v0 (F := Ideal) (ix2 r j) = Perceptron.floor0 :=
  (Read.val_main_call0_v0_apply (F := Ideal) (ix2 r j)).trans (Read.val_main_call0_cst_apply (F := Ideal) _)

/-- THE ARRAY THE REFERENCE PROPAGATES is the perceptron of its arguments. -/
theorem dense_eq (x0 : (⟨S100000x512, .f32⟩ : BufTy).Contents (Elt Ideal)) (x2 : (⟨S512x256, .f32⟩ : BufTy).Contents (Elt Ideal))
    (x3 : (⟨S256, .f32⟩ : BufTy).Contents (Elt Ideal)) (x4 : (⟨S256x32, .f32⟩ : BufTy).Contents (Elt Ideal))
    (x5 : (⟨S32, .f32⟩ : BufTy).Contents (Elt Ideal)) :
    Read.val_main_v8 (F := Ideal) x0 x2 x3 x4 x5 = Perceptron.dense x0 x2 x3 x4 x5 := by
  funext i
  obtain ⟨r, q, rfl⟩ : ∃ (r : Fin 100000) (q : Fin 32), i = ix2 r q := ⟨i 0, i 1, eq_ix2 i⟩
  exact Perceptron.of_dot _ plain1 _ plain2 none none x0 x2 x3 x4 x5
    (Read.val_main_v2 (F := Ideal) x3) (Read.val_main_call0_v0 (F := Ideal)) (Read.val_main_v7 (F := Ideal) x5)
    (bias1 x3) floor_row (bias2 x5) r q

/-- THE REFERENCE'S RESULT is the propagation of the perceptron of its arguments. -/
theorem result_eq (x0 : (⟨S100000x512, .f32⟩ : BufTy).Contents (Elt Ideal)) (x1 : (⟨S1600000, .f32⟩ : BufTy).Contents (Elt Ideal))
    (x2 : (⟨S512x256, .f32⟩ : BufTy).Contents (Elt Ideal)) (x3 : (⟨S256, .f32⟩ : BufTy).Contents (Elt Ideal))
    (x4 : (⟨S256x32, .f32⟩ : BufTy).Contents (Elt Ideal)) (x5 : (⟨S32, .f32⟩ : BufTy).Contents (Elt Ideal))
    (x6 x7 : (⟨S1600000, .i32⟩ : BufTy).Contents (Elt Ideal)) :
    Read.val_main_v21 (F := Ideal) x0 x1 x2 x3 x4 x5 x6 x7 = Propagate.spread (Perceptron.dense x0 x2 x3 x4 x5) x1 x6 x7 :=
  congrArg (fun X => Propagate.spread X x1 x6 x7) (dense_eq x0 x2 x3 x4 x5)

end Cert.ReferenceIdeal.RefValue

end
-- ==== Proof.lean ====
/-
  The kernel and its reference compute the same array.

  Both programs take a 100000 by 512 feature matrix, two weight matrices and two bias vectors, and 1600000 weighted
  edges given by destination and source.  Both form the two-layer perceptron of the features,

      X(r, q) = sum over j of max (sum over k of f(r,k) * w1(k,j) + b1(j)) 0 * w2(j,q) + b2(q),

  and then propagate it along the edges: the result's row d is the sum, over the edges with destination d, of the
  edge's weight times the row of X at the edge's source.

  The kernel computes X on the accelerator 2000 rows at a time, with its operands and its result narrowed to a
  shorter float format, and the reference computes X whole with two dot products.  On the extended reals a change of
  float format is the identity, a product accumulated into a zero array is the plain sum, and a row of X depends on the
  same row of the features only; so both arrays are X (Perceptron, Payload, Blocks, RefValue).  The propagation is the
  same sequence of host operations in both programs, applied to equal arrays (Propagate, KernelRun), so the results are
  equal.  No rearrangement of a sum and no cancellation is used anywhere: the equality holds for all extended-real
  inputs, and the finiteness of the inputs is never opened.

  The three programs' runs terminate without fault and leave their arguments unchanged: for the two kernel programs
  that is the generated frame, for the reference its generated run.  The kernel read on the extended reals is the
  kernel's own text (no operation was rewritten), so there is nothing to show for that conjunct.
-/
import proofs.«108479_j10557029614175_2_alg».proof.Defs
import proofs.«108479_j10557029614175_2_alg».proof.Proof.Gen.Kernel
import proofs.«108479_j10557029614175_2_alg».proof.Proof.Gen.Kernel.Skeleton
import proofs.«108479_j10557029614175_2_alg».proof.Proof.Gen.Kernel.Launch
import proofs.«108479_j10557029614175_2_alg».proof.Proof.Gen.Kernel.Points
import proofs.«108479_j10557029614175_2_alg».proof.Proof.Gen.Kernel.Frame
import proofs.«108479_j10557029614175_2_alg».proof.Proof.Gen.KernelIdeal
import proofs.«108479_j10557029614175_2_alg».proof.Proof.Gen.KernelIdeal.Skeleton
import proofs.«108479_j10557029614175_2_alg».proof.Proof.Gen.KernelIdeal.Launch
import proofs.«108479_j10557029614175_2_alg».proof.Proof.Gen.KernelIdeal.Points
import proofs.«108479_j10557029614175_2_alg».proof.Proof.Gen.KernelIdeal.Frame
import proofs.«108479_j10557029614175_2_alg».proof.Proof.Gen.ReferenceIdeal
import proofs.«108479_j10557029614175_2_alg».proof.Proof.Gen.ReferenceIdeal.Run
import proofs.«108479_j10557029614175_2_alg».proof.Proof.Gen.ReferenceIdeal.Read
import proofs.«108479_j10557029614175_2_alg».proof.Proof.Gen.Pre_finite_inputs
import proofs.«108479_j10557029614175_2_alg».proof.Proof.KernelRun
import proofs.«108479_j10557029614175_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and keeps its arguments: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From memories that agree on the arguments both programs end with the propagation of the perceptron of the
    arguments: the kernel by its run, the reference by its run read as that same function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v21_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
